-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S8192x512 : Shape := ⟨2, ![8192, 512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S8192x512 : S_.BroadcastsInDim S8192x512 (![] : Fin 0 → Fin S8192x512.rank)
  reducesTo_S8192x512_S_d0_1 : S8192x512.ReducesTo [0, 1] S_

variable [Facts]

def fn {F : FTy → Type} [FloatOps F] (main_arg0 : FVec F S4096x512 .f32) (main_arg1 : FVec F S8192x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  main_v8
-- ==== Kernel.lean ====
abbrev S4096x512 : Shape := ⟨2, ![4096, 512]⟩
abbrev S8192x512 : Shape := ⟨2, ![8192, 512]⟩
abbrev S_ : Shape := ⟨0, ![]⟩
abbrev S4096 : Shape := ⟨1, ![4096]⟩
abbrev S4096x1 : Shape := ⟨2, ![4096, 1]⟩
abbrev S8192 : Shape := ⟨1, ![8192]⟩
abbrev S8192x1 : Shape := ⟨2, ![8192, 1]⟩
abbrev S1x8192 : Shape := ⟨2, ![1, 8192]⟩
abbrev S4096x8192 : Shape := ⟨2, ![4096, 8192]⟩
abbrev S2048x512 : Shape := ⟨2, ![2048, 512]⟩
abbrev S512x512 : Shape := ⟨2, ![512, 512]⟩
abbrev S2048x1 : Shape := ⟨2, ![2048, 1]⟩
abbrev S1x512 : Shape := ⟨2, ![1, 512]⟩

abbrev nBuf : Space → Nat
  | .hbm => 14
  | .vmem => 10
  | .smem => 0
  | _ => 0

abbrev bufTy : (tb : Table) → Fin (tcTables nBuf tb) → BufTy
  | .hbm, ⟨0, _⟩ => ⟨S4096x512, .f32⟩
  | .hbm, ⟨1, _⟩ => ⟨S8192x512, .f32⟩
  | .hbm, ⟨2, _⟩ => ⟨S4096x512, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S8192x512, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S1x8192, .f32⟩
  | .hbm, ⟨11, _⟩ => ⟨S4096x512, .bf16⟩
  | .hbm, ⟨12, _⟩ => ⟨S8192x512, .bf16⟩
  | .hbm, ⟨13, _⟩ => ⟨S4096x8192, .f32⟩
  | .local _ .vmem, ⟨0, _⟩ => ⟨S2048x512, .bf16⟩
  | .local _ .vmem, ⟨1, _⟩ => ⟨S2048x512, .bf16⟩
  | .local _ .vmem, ⟨2, _⟩ => ⟨S512x512, .bf16⟩
  | .local _ .vmem, ⟨3, _⟩ => ⟨S512x512, .bf16⟩
  | .local _ .vmem, ⟨4, _⟩ => ⟨S2048x1, .f32⟩
  | .local _ .vmem, ⟨5, _⟩ => ⟨S2048x1, .f32⟩
  | .local _ .vmem, ⟨6, _⟩ => ⟨S1x512, .f32⟩
  | .local _ .vmem, ⟨7, _⟩ => ⟨S1x512, .f32⟩
  | .local _ .vmem, ⟨8, _⟩ => ⟨S2048x512, .f32⟩
  | .local _ .vmem, ⟨9, _⟩ => ⟨S2048x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  reducesTo_S4096x512_S4096_d1 : S4096x512.ReducesTo [1] S4096
  h_S_ : 0 < S_.numel
  bcast_S4096_S4096x1_0 : S4096.BroadcastsInDim S4096x1 (![0] : Fin 1 → Fin S4096x1.rank)
  reducesTo_S8192x512_S8192_d1 : S8192x512.ReducesTo [1] S8192
  bcast_S8192_S8192x1_0 : S8192.BroadcastsInDim S8192x1 (![0] : Fin 1 → Fin S8192x1.rank)
  shapeCasts_S8192x1_S1x8192 : S8192x1.ShapeCasts S1x8192
  bitsLt_bf16_f32 : FTy.bits .bf16 < FTy.bits .f32
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S2048x1_S2048x512 : S2048x1.Broadcasts S2048x512
  broadcasts_S1x512_S2048x512 : S1x512.Broadcasts S2048x512
  dot_S2048x512_S512x512_S2048x512_1_1_0_0_n_n_wf : DotDims.WF S2048x512 S512x512 S2048x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S4096x512.size a
  hwx0_0 : ∀ i : grid0.Coords, EltTy.bits .bf16 = 32 ∨ (Rect.block (s := S4096x512) S2048x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S8192x512.size a
  hwx0_1 : ∀ i : grid0.Coords, EltTy.bits .bf16 = 32 ∨ (Rect.block (s := S8192x512) S512x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S4096x1.size a
  hwx0_2 : ∀ i : grid0.Coords, EltTy.bits .f32 = 32 ∨ (Rect.block (s := S4096x1) S2048x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x8192.size a
  hwx0_3 : ∀ i : grid0.Coords, EltTy.bits .f32 = 32 ∨ (Rect.block (s := S1x8192) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x512.size a ≤ S4096x8192.size a
  hwx0_4 : ∀ i : grid0.Coords, EltTy.bits .f32 = 32 ∨ (Rect.block (s := S4096x8192) S2048x512.size (cc0_transform_4 i) (hinb0_4 i)).WholeWords (EltTy.packing .f32)

variable [Facts₀]

def dot_S2048x512_S512x512_S2048x512_1_1_0_0_n_n : DotDims S2048x512 S512x512 S2048x512 where
  lhsContracting := [1]
  rhsContracting := [1]
  lhsNonContracting := [0]
  rhsNonContracting := [0]
  lhsBatch := []
  rhsBatch := []
  wf := dot_S2048x512_S512x512_S2048x512_1_1_0_0_n_n_wf

abbrev win0_0 : Pipeline.Window sig grid0 :=
  Pipeline.Window.ofSpec (Memref.whole main_v7) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9) S2048x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x512 : Shape := ⟨2, ![4096, 512]⟩
abbrev S8192x512 : Shape := ⟨2, ![8192, 512]⟩
abbrev S_ : Shape := ⟨0, ![]⟩
abbrev S4096 : Shape := ⟨1, ![4096]⟩
abbrev S8192 : Shape := ⟨1, ![8192]⟩
abbrev S4096x8192 : Shape := ⟨2, ![4096, 8192]⟩
abbrev S4096x1 : Shape := ⟨2, ![4096, 1]⟩
abbrev S1x8192 : Shape := ⟨2, ![1, 8192]⟩

abbrev nBuf : Space → Nat
  | .hbm => 22
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S8192x512, .f32⟩
  | .hbm, ⟨2, _⟩ => ⟨S4096x512, .f32⟩
  | .hbm, ⟨3, _⟩ => ⟨S_, .f32⟩
  | .hbm, ⟨4, _⟩ => ⟨S4096, .f32⟩
  | .hbm, ⟨5, _⟩ => ⟨S8192x512, .f32⟩
  | .hbm, ⟨6, _⟩ => ⟨S_, .f32⟩
  | .hbm, ⟨7, _⟩ => ⟨S8192, .f32⟩
  | .hbm, ⟨8, _⟩ => ⟨S4096x8192, .f32⟩
  | .hbm, ⟨9, _⟩ => ⟨S4096x1, .f32⟩
  | .hbm, ⟨10, _⟩ => ⟨S1x8192, .f32⟩
  | .hbm, ⟨11, _⟩ => ⟨S4096x8192, .f32⟩
  | .hbm, ⟨12, _⟩ => ⟨S4096x8192, .f32⟩
  | .hbm, ⟨13, _⟩ => ⟨S4096x8192, .f32⟩
  | .hbm, ⟨14, _⟩ => ⟨S_, .f32⟩
  | .hbm, ⟨15, _⟩ => ⟨S4096x8192, .f32⟩
  | .hbm, ⟨16, _⟩ => ⟨S4096x8192, .f32⟩
  | .hbm, ⟨17, _⟩ => ⟨S4096x8192, .f32⟩
  | .hbm, ⟨18, _⟩ => ⟨S_, .f32⟩
  | .hbm, ⟨19, _⟩ => ⟨S4096x8192, .f32⟩
  | .hbm, ⟨20, _⟩ => ⟨S4096x8192, .f32⟩
  | .hbm, ⟨21, _⟩ => ⟨S4096x8192, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  reducesTo_S4096x512_S4096_d1 : S4096x512.ReducesTo [1] S4096
  h_S_ : 0 < S_.numel
  reducesTo_S8192x512_S8192_d1 : S8192x512.ReducesTo [1] S8192
  bcast_S4096_S4096x1_0 : S4096.BroadcastsInDim S4096x1 (![0] : Fin 1 → Fin S4096x1.rank)
  bcast_S8192_S1x8192_1 : S8192.BroadcastsInDim S1x8192 (![1] : Fin 1 → Fin S1x8192.rank)
  bcast_S4096x1_S4096x8192_0_1 : S4096x1.BroadcastsInDim S4096x8192 (![0, 1] : Fin 2 → Fin S4096x8192.rank)
  bcast_S1x8192_S4096x8192_0_1 : S1x8192.BroadcastsInDim S4096x8192 (![0, 1] : Fin 2 → Fin S4096x8192.rank)
  bcast_S_S4096x8192 : S_.BroadcastsInDim S4096x8192 (![] : Fin 0 → Fin S4096x8192.rank)
  dot_S4096x512_S8192x512_S4096x8192_1_1_0_0_n_n_wf : DotDims.WF S4096x512 S8192x512 S4096x8192 [1] [1] [0] [0] [] []

variable [Facts₀]

def dot_S4096x512_S8192x512_S4096x8192_1_1_0_0_n_n : DotDims S4096x512 S8192x512 S4096x8192 where
  lhsContracting := [1]
  rhsContracting := [1]
  lhsNonContracting := [0]
  rhsNonContracting := [0]
  lhsBatch := []
  rhsBatch := []
  wf := dot_S4096x512_S8192x512_S4096x8192_1_1_0_0_n_n_wf

class Facts : Prop extends Facts₀ where

variable [Facts]
-- ==== Proof.RbfSpec.lean ====
/-
  The Gaussian kernel matrix of two families of rows, over the extended reals.

  For arrays `x : [4096, 512]` and `w : [8192, 512]` the entry at `(r, q)` is
  `exp (-(1/2) · d²(r, q))` with the squared distance of row `r` of `x` from row `q` of `w` EXPANDED,
  `d²(r, q) = (|x_r|² + |w_q|²) − 2 · ⟨x_r, w_q⟩`; the two float literals `2.0` and `-0.5` stay the
  patterns both programs spell. One program clamps the expanded distance below by zero before the
  exponential (`gaussClamped`), the other does not (`gauss`). On FINITE rows the expansion is the sum of
  the squares `(x_rk − w_qk)²`, hence never negative, and the clamp is the identity: `gaussClamped_eq_gauss`.
  (At an infinite entry the expansion meets `⊤ − ⊤`, and the two differ: finiteness is used.)
-/
import Idealize.ShloMosaic.PureOps.Ideal
import Idealize.ShloMosaic.PureOps.Ideal.Laws
import Idealize.ShloMosaic.Lib.ValueIdx

noncomputable section

open scoped BigOperators

namespace Cert.Rbf

open Idealize.ShloMosaic Idealize.ShloMosaic.ValueIdx

/-- The shapes of the two row families and of the matrix. -/
abbrev SX : Shape := ⟨2, ![4096, 512]⟩
abbrev SW : Shape := ⟨2, ![8192, 512]⟩
abbrev SO : Shape := ⟨2, ![4096, 8192]⟩

/-- The squared length of row `r`: the sum of the squares of its 512 entries. -/
def rowSq {n : Nat} (a : (⟨2, ![n, 512]⟩ : Shape).Idx → EReal) (r : Fin n) : EReal :=
  ∑ k : Fin 512, a (ix2 r k) * a (ix2 r k)

/-- The inner product of row `r` of `x` with row `q` of `w`. -/
def rowDot (x : SX.Idx → EReal) (w : SW.Idx → EReal) (r : Fin 4096) (q : Fin 8192) : EReal :=
  ∑ k : Fin 512, x (ix2 r k) * w (ix2 q k)

/-- The squared distance of the two rows, expanded: `(|x_r|² + |w_q|²) − 2 · ⟨x_r, w_q⟩`. -/
def sqDist (x : SX.Idx → EReal) (w : SW.Idx → EReal) (r : Fin 4096) (q : Fin 8192) : EReal :=
  (rowSq x r + rowSq w q) - Ideal.ofBits .f32 0x40000000#32 * rowDot x w r q

/-- The matrix entry: `exp (-(1/2) · d²)`. -/
def gaussAt (x : SX.Idx → EReal) (w : SW.Idx → EReal) (r : Fin 4096) (q : Fin 8192) : EReal :=
  Ideal.exp (Ideal.ofBits .f32 0xBF000000#32 * sqDist x w r q)

/-- The entry with the expanded distance clamped below by zero first. -/
def gaussClampedAt (x : SX.Idx → EReal) (w : SW.Idx → EReal) (r : Fin 4096) (q : Fin 8192) : EReal :=
  Ideal.exp (Ideal.ofBits .f32 0xBF000000#32 * max (sqDist x w r q) (Ideal.ofBits .f32 0x00000000#32))

/-- The whole matrix, index by index. -/
def gauss (x : SX.Idx → EReal) (w : SW.Idx → EReal) : SO.Idx → EReal := fun i => gaussAt x w (i 0) (i 1)
def gaussClamped (x : SX.Idx → EReal) (w : SW.Idx → EReal) : SO.Idx → EReal := fun i => gaussClampedAt x w (i 0) (i 1)

/-- The pattern of `2.0` denotes the real 2. -/
theorem ofBits_two : Ideal.ofBits .f32 0x40000000#32 = ((2 : ℝ) : EReal) := by
  simp [Ideal.ofBits, Ideal.ieee, -EReal.coe_mul]; norm_num

/-- A finite sum of reals, each read as an extended real, is the real sum read as one. -/
theorem coe_sum {ι : Type} (s : Finset ι) (f : ι → ℝ) : (∑ k ∈ s, (f k : EReal)) = ((∑ k ∈ s, f k : ℝ) : EReal) := by
  classical
  induction s using Finset.induction_on with
  | empty => simp
  | insert a s ha ih => rw [Finset.sum_insert ha, Finset.sum_insert ha, ih, EReal.coe_add]

/-- For real rows `a`, `b`: `Σ a² + Σ b² − 2 Σ a b = Σ (a − b)² ≥ 0`. -/
theorem real_expansion_nonneg (a b : Fin 512 → ℝ) :
    0 ≤ (∑ k, a k * a k + ∑ k, b k * b k) - 2 * ∑ k, a k * b k := by
  have h : (∑ k, a k * a k + ∑ k, b k * b k) - 2 * ∑ k, a k * b k = ∑ k, (a k - b k) ^ 2 := by
    rw [Finset.mul_sum, ← Finset.sum_add_distrib, ← Finset.sum_sub_distrib]
    exact Finset.sum_congr rfl fun k _ => by ring
  rw [h]
  exact Finset.sum_nonneg fun k _ => sq_nonneg _

/-- On finite rows the expanded squared distance is not negative. -/
theorem sqDist_nonneg (x : SX.Idx → EReal) (w : SW.Idx → EReal)
    (hx : ∀ i, ∃ a : ℝ, x i = (a : EReal)) (hw : ∀ i, ∃ b : ℝ, w i = (b : EReal)) (r : Fin 4096) (q : Fin 8192) :
    0 ≤ sqDist x w r q := by
  choose a ha using fun k : Fin 512 => hx (ix2 r k)
  choose b hb using fun k : Fin 512 => hw (ix2 q k)
  unfold sqDist rowSq rowDot
  simp only [ha, hb, ofBits_two, ← EReal.coe_mul, coe_sum, ← EReal.coe_add, ← EReal.coe_sub]
  exact EReal.coe_nonneg.mpr (real_expansion_nonneg a b)

/-- So on finite arrays the clamp changes nothing. -/
theorem gaussClamped_eq_gauss (x : SX.Idx → EReal) (w : SW.Idx → EReal)
    (hx : ∀ i, ∃ a : ℝ, x i = (a : EReal)) (hw : ∀ i, ∃ b : ℝ, w i = (b : EReal)) :
    gaussClamped x w = gauss x w := by
  funext i
  unfold gaussClamped gauss gaussClampedAt gaussAt
  rw [Ideal.ofBits_zero_f32, max_eq_left (sqDist_nonneg x w hx hw (i 0) (i 1))]

end Cert.Rbf

end
-- ==== Proof.RefIsGauss.lean ====
/-
  The reference program's result is the Gaussian kernel matrix `Cert.Rbf.gauss` of its two arguments.

  Read one operation at a time (the generated read-at-an-index lemmas), the entry at `(r, q)` of the reference's
  last stage is `exp (c · ((0 + Σₖ x_rk·x_rk) + (0 + Σₖ w_qk·w_qk) − 2 · Σₖ x_rk·w_qk))`: the two row sums each
  broadcast along the other axis, the product of the two arrays contracted over the 512 columns. The zeros
  the sums start from vanish, and what is left is `gaussAt x w r q` term for term.
-/
import proofs.«114324_j61229053771823_2_alg».proof.Proof.Gen.ReferenceIdeal.Read
import proofs.«114324_j61229053771823_2_alg».proof.Proof.RbfSpec

noncomputable section

namespace Cert.ReferenceIdeal.RefValue

open Cert.ReferenceIdeal Cert.ReferenceIdeal.Gen Cert.ReferenceIdeal.Read
open Idealize.ShloMosaic Idealize.ShloMosaic.ValueIdx Cert.Rbf

/-- The reference's last stage, as a function of the two argument arrays, is `gauss`. -/
theorem ref_is_gauss (x : S4096x512.Idx → EReal) (w : S8192x512.Idx → EReal) :
    val_main_v15 (F := Ideal) x w = gauss x w := by
  funext i
  obtain ⟨r, q, rfl⟩ : ∃ (r : Fin 4096) (q : Fin 8192), i = ix2 r q := ⟨i 0, i 1, eq_ix2 i⟩
  -- the composed index maps of the broadcasts and the sums land on row `r` of `x` and row `q` of `w`
  have e1 : ∀ k : Fin 512, idx_main_v1 (idx_main_v5 (idx_main_v7 (ix2 r q))) k = ix2 r k := fun k =>
    funext fun a => Fin.ext (by match a with | ⟨0, _⟩ => rfl | ⟨1, _⟩ => rfl)
  have e3 : ∀ k : Fin 512, idx_main_v3 (idx_main_v6 (idx_main_v8 (ix2 r q))) k = ix2 q k := fun k =>
    funext fun a => Fin.ext (by match a with | ⟨0, _⟩ => rfl | ⟨1, _⟩ => rfl)
  have el : ∀ k : Fin 512, lidx_main_v4 (ix2 r q) k = ix2 r k := fun k =>
    funext fun a => Fin.ext (by match a with | ⟨0, _⟩ => rfl | ⟨1, _⟩ => rfl)
  have er : ∀ k : Fin 512, ridx_main_v4 (ix2 r q) k = ix2 q k := fun k =>
    funext fun a => Fin.ext (by match a with | ⟨0, _⟩ => rfl | ⟨1, _⟩ => rfl)
  rw [val_main_v15_apply, val_main_v14_apply, val_main_v13_apply, val_main_cst_2_apply, val_main_v12_apply,
    val_main_v9_apply, val_main_v7_apply, val_main_v5_apply, val_main_v1_apply, val_main_v8_apply, val_main_v6_apply,
    val_main_v3_apply, val_main_v11_apply, val_main_v10_apply, val_main_cst_1_apply, val_main_v4_apply]
  show _ = gaussAt x w r q
  unfold gaussAt sqDist rowSq rowDot
  simp only [val_main_v0_apply, val_main_v2_apply, val_main_cst_apply, val_main_cst_0_apply, e1, e3, el, er,
    Ideal.hostUnary_exp_def, Ideal.mulf_def, Ideal.subf_def, Ideal.addf_def, Ideal.ofBits_def,
    Ideal.ofBits_zero_f32, zero_add]

end Cert.ReferenceIdeal.RefValue

end
-- ==== Proof.BlockValue.lean ====
/-
  One grid point's arithmetic, read at an entry.

  At a grid point the body holds a block `xb : [2048, 512]` of rows of `x`, a block `wb : [512, 512]` of rows of `w`,
  a column `sx : [2048, 1]` and a row `sw : [1, 512]` of squared lengths, and stores
  `exp (c · max ((sx + sw) − 2 · xb·wbᵀ) 0)` with `sx` broadcast along the columns and `sw` along the rows.
  At the entry `(p, q)` of the block that is
  `exp (c · max ((sx(p,0) + sw(0,q)) − 2 · Σₖ xb(p,k)·wb(q,k)) 0)`: every operation but three acts entry by entry;
  the column broadcast reads `(p, 0)`, the row broadcast `(0, q)`, and the matrix product into a zero
  accumulator, contracting the second axis of both operands, is the sum over the 512 columns.
-/
import proofs.«114324_j61229053771823_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.BlockValue

open Cert.KernelIdeal Cert.KernelIdeal.Gen Idealize.ShloMosaic Idealize.ShloMosaic.ValueIdx

/-- The body's contraction: both operands contracted on their second axis. -/
abbrev D : DotDims S2048x512 S512x512 S2048x512 := dot_S2048x512_S512x512_S2048x512_1_1_0_0_n_n

theorem lhs0 (i : S2048x512.Idx) (u : D.contr.Idx) : (D.lhsIdx i u 0).val = (i 0).val := by
  unfold DotDims.lhsIdx
  rw [dif_neg (show ¬(0 : Fin S2048x512.rank) ∈ D.lhsBatch by decide), dif_pos (show (0 : Fin S2048x512.rank) ∈ D.lhsNonContracting by decide)]
  rfl
theorem lhs1 (i : S2048x512.Idx) (u : D.contr.Idx) : (D.lhsIdx i u 1).val = (u ⟨0, by decide⟩).val :=
  D.lhsIdx_val_of_single rfl i u
theorem rhs0 (i : S2048x512.Idx) (u : D.contr.Idx) : (D.rhsIdx i u 0).val = (i 1).val := by
  unfold DotDims.rhsIdx
  rw [dif_neg (show ¬(0 : Fin S512x512.rank) ∈ D.rhsBatch by decide), dif_pos (show (0 : Fin S512x512.rank) ∈ D.rhsNonContracting by decide)]
  rfl
theorem rhs1 (i : S2048x512.Idx) (u : D.contr.Idx) : (D.rhsIdx i u 1).val = (u ⟨0, by decide⟩).val :=
  D.rhsIdx_val_of_single rfl i u

/-- The matrix product into a zero accumulator at `(p, q)`: row `p` of the left operand against row `q` of the right. -/
theorem cross_apply (l : FVec Ideal S2048x512 .bf16) (r : FVec Ideal S512x512 .bf16) (p : Fin 2048) (q : Fin 512) :
    matmul (F := Ideal) D none l r (constant S2048x512 .f32 0x00000000#32) (ix2 p q) = ∑ k : Fin 512, l (ix2 p k) * r (ix2 q k) := by
  simp only [matmul]
  rw [Ideal.matmul_constant_zero_apply, ← Equiv.sum_comp (contrEquiv1 D 512 rfl rfl).symm]
  refine Finset.sum_congr rfl fun k _ => ?_
  have hk := contrEquiv1_symm_val D 512 rfl rfl k
  have el : D.lhsIdx (ix2 p q) ((contrEquiv1 D 512 rfl rfl).symm k) = ix2 p k := funext fun a => Fin.ext (by
    match a with
    | ⟨0, _⟩ => exact lhs0 _ _
    | ⟨1, _⟩ => exact (lhs1 _ _).trans hk)
  have er : D.rhsIdx (ix2 p q) ((contrEquiv1 D 512 rfl rfl).symm k) = ix2 q k := funext fun a => Fin.ext (by
    match a with
    | ⟨0, _⟩ => exact rhs0 _ _
    | ⟨1, _⟩ => exact (rhs1 _ _).trans hk)
  rw [el, er]

/-- A column `[2048, 1]` broadcast along the columns reads, at `(p, q)`, the column at `(p, 0)`. -/
theorem col_apply (v : FVec Ideal S2048x1 .f32) (h : S2048x1.Broadcasts S2048x512) (p : Fin 2048) (q : Fin 512) :
    broadcastTo S2048x512 v h (ix2 p q) = v (ix2 p (0 : Fin 1)) := by
  refine broadcastTo_apply v h (ix2 p q) (ix2 p (0 : Fin 1)) fun a => ?_
  match a with
  | ⟨0, _⟩ => show p.val = if (2048 : Nat) = 1 then 0 else p.val; rw [if_neg (by decide)]
  | ⟨1, _⟩ => show 0 = if (1 : Nat) = 1 then 0 else q.val; rw [if_pos rfl]

/-- A row `[1, 512]` broadcast along the rows reads, at `(p, q)`, the row at `(0, q)`. -/
theorem row_apply (v : FVec Ideal S1x512 .f32) (h : S1x512.Broadcasts S2048x512) (p : Fin 2048) (q : Fin 512) :
    broadcastTo S2048x512 v h (ix2 p q) = v (ix2 (0 : Fin 1) q) :=
  broadcastTo_1b_ab_apply v h p q

/-- The entrywise part of the body: at an index, `exp (c · max ((A + B) − 2 · C) 0)`. -/
theorem entrywise (A B C : FVec Ideal S2048x512 .f32) (j : S2048x512.Idx) :
    exp (mulf (broadcast S2048x512 (Scalar.ofBits (F := Ideal) .f32 0xBF000000#32))
      (maximumf (subf (addf A B) (mulf (broadcast S2048x512 (Scalar.ofBits (F := Ideal) .f32 0x40000000#32)) C))
        (broadcast S2048x512 (Scalar.ofBits (F := Ideal) .f32 0x00000000#32)))) j
      = Ideal.exp (Ideal.ofBits .f32 0xBF000000#32 * max ((A j + B j) - Ideal.ofBits .f32 0x40000000#32 * C j) (Ideal.ofBits .f32 0x00000000#32)) := rfl

/-- THE BODY'S STORED VALUE at entry `(p, q)` of the block. -/
theorem pay_apply (xb : Vec Ideal S2048x512 .bf16) (wb : Vec Ideal S512x512 .bf16) (sx : Vec Ideal S2048x1 .f32) (sw : Vec Ideal S1x512 .f32)
    (p : Fin 2048) (q : Fin 512) :
    k0_pay1 (F := Ideal) xb wb sx sw (ix2 p q)
      = Ideal.exp (Ideal.ofBits .f32 0xBF000000#32 *
          max ((sx (ix2 p (0 : Fin 1)) + sw (ix2 (0 : Fin 1) q)) - Ideal.ofBits .f32 0x40000000#32 * ∑ k : Fin 512, xb (ix2 p k) * wb (ix2 q k))
            (Ideal.ofBits .f32 0x00000000#32)) := by
  unfold k0_pay1
  refine (entrywise _ _ _ (ix2 p q)).trans ?_
  rw [col_apply, row_apply, cross_apply]
  simp only [shapeCast_self]

end Cert.KernelIdeal.BlockValue

end
-- ==== Proof.EntryArrays.lean ====
/-
  What the grid finds in the four arrays it reads, as functions of the two arguments.

  Before the grid starts the host program has written: the two arguments with their format changed (the identity on the
  extended reals), the column `[4096, 1]` of the squared lengths of the rows of `x`, and the row `[1, 8192]` of the
  squared lengths of the rows of `w` (summed into a column first, then reshaped into a row: entry `(0, q)` of
  the row is entry `(q, 0)` of the column, both at row-major position `q`). Each sum starts from the literal zero,
  which adds nothing.
-/
import proofs.«114324_j61229053771823_2_alg».proof.Proof.Gen.KernelIdeal.Frame
import proofs.«114324_j61229053771823_2_alg».proof.Proof.RbfSpec
import Idealize.ShloMosaic.Lib.Pipeline.Value
import Idealize.ShloMosaic.Lib.StableHlo.Run
import Idealize.ShloMosaic.Lib.ValueIdx
import Idealize.ShloMosaic.PureOps.Ideal.Laws

noncomputable section

namespace Cert.KernelIdeal.Entry

open Cert.KernelIdeal Cert.KernelIdeal.Gen Idealize.ShloMosaic Idealize.ShloMosaic.TcCoe Idealize.SL.Sem
open Idealize.ShloMosaic.StableHlo Idealize.ShloMosaic.ValueIdx Cert.Rbf

variable (m : (ℓ : Loc nD τ sig) → Buf (Elt Ideal) ℓ)

/-- The two arguments as launched, on core `c`. -/
abbrev X (c : Dev nD) : S4096x512.Idx → EReal := m ((c : Thread nD τ).loc main_arg0)
abbrev W (c : Dev nD) : S8192x512.Idx → EReal := m ((c : Thread nD τ).loc main_arg1)

/-- A host sum over the 512 columns of a `[n, 512]` array of products `a·a`, from the literal zero, at row `r`: the squared length. -/
theorem sum_sq_x (a : FVec Ideal S4096x512 .f32) (r : Fin 4096) :
    Host.reduceAdd (F := Ideal) (mulf a a) (constant (F := Ideal) S_ .f32 0x00000000#32) reducesTo_S4096x512_S4096_d1 h_S_ (ix1 r) = rowSq a r := by
  simp only [Host.reduceAdd, Ideal.hostReduceAdd_def]
  rw [Ideal.hostReduceAdd_single reducesTo_S4096x512_S4096_d1 (by decide)]
  show Ideal.ofBits .f32 0x00000000#32 + _ = _
  rw [Ideal.ofBits_zero_f32, zero_add]
  unfold rowSq
  refine Finset.sum_congr rfl fun k _ => ?_
  exact congrArg (mulf a a) (funext fun b => Fin.ext (by match b with | ⟨0, _⟩ => rfl | ⟨1, _⟩ => rfl))

theorem sum_sq_w (a : FVec Ideal S8192x512 .f32) (r : Fin 8192) :
    Host.reduceAdd (F := Ideal) (mulf a a) (constant (F := Ideal) S_ .f32 0x00000000#32) reducesTo_S8192x512_S8192_d1 h_S_ (ix1 r) = rowSq a r := by
  simp only [Host.reduceAdd, Ideal.hostReduceAdd_def]
  rw [Ideal.hostReduceAdd_single reducesTo_S8192x512_S8192_d1 (by decide)]
  show Ideal.ofBits .f32 0x00000000#32 + _ = _
  rw [Ideal.ofBits_zero_f32, zero_add]
  unfold rowSq
  refine Finset.sum_congr rfl fun k _ => ?_
  exact congrArg (mulf a a) (funext fun b => Fin.ext (by match b with | ⟨0, _⟩ => rfl | ⟨1, _⟩ => rfl))

/-- The first matrix operand is `x`. -/
theorem xb_apply (c : Dev nD) (i : S4096x512.Idx) : (V m c main_v7 : S4096x512.Idx → EReal) i = X m c i := by
  have e : @Eq (S4096x512.Idx → EReal) (V m c main_v7) (truncf (F := Ideal) .bf16 (X m c) bitsLt_bf16_f32) := by
    dsimp only [V, hostOps0]; after_results; try rfl
  rw [e]; rfl

/-- The second matrix operand is `w`. -/
theorem wb_apply (c : Dev nD) (i : S8192x512.Idx) : (V m c main_v8 : S8192x512.Idx → EReal) i = W m c i := by
  have e : @Eq (S8192x512.Idx → EReal) (V m c main_v8) (truncf (F := Ideal) .bf16 (W m c) bitsLt_bf16_f32) := by
    dsimp only [V, hostOps0]; after_results; try rfl
  rw [e]; rfl

/-- The column operand at `(r, 0)` is the squared length of row `r` of `x`. -/
theorem sx_apply (c : Dev nD) (r : Fin 4096) : (V m c main_v2 : S4096x1.Idx → EReal) (ix2 r (0 : Fin 1)) = rowSq (X m c) r := by
  have e : (V m c main_v2 : S4096x1.Idx → EReal) = broadcastInDim S4096x1 ![0] bcast_S4096_S4096x1_0
      (Host.reduceAdd (F := Ideal) (mulf (X m c) (X m c)) (constant (F := Ideal) S_ .f32 0x00000000#32) reducesTo_S4096x512_S4096_d1 h_S_) := by
    dsimp only [V, hostOps0]; after_results; try rfl
  rw [e]
  refine (broadcastInDim_apply _ bcast_S4096_S4096x1_0 _ (ix2 r (0 : Fin 1)) (ix1 r) (fun a => match a with
    | ⟨0, _⟩ => by show r.val = if (4096 : Nat) = 1 then 0 else r.val; rw [if_neg (by decide)])).trans ?_
  exact sum_sq_x (X m c) r

/-- The row operand at `(0, q)` is the squared length of row `q` of `w`. -/
theorem sw_apply (c : Dev nD) (q : Fin 8192) : (V m c main_v6 : S1x8192.Idx → EReal) (ix2 (0 : Fin 1) q) = rowSq (W m c) q := by
  have e : (V m c main_v6 : S1x8192.Idx → EReal) = shapeCast S1x8192 (broadcastInDim S8192x1 ![0] bcast_S8192_S8192x1_0
      (Host.reduceAdd (F := Ideal) (mulf (W m c) (W m c)) (constant (F := Ideal) S_ .f32 0x00000000#32) reducesTo_S8192x512_S8192_d1 h_S_)) shapeCasts_S8192x1_S1x8192 := by
    dsimp only [V, hostOps0]; after_results; try rfl
  rw [e]
  refine (shapeCast_apply _ shapeCasts_S8192x1_S1x8192 (ix2 (0 : Fin 1) q) (ix2 q (0 : Fin 1)) (by
    rw [Shape.rowMajor_val_two, Shape.rowMajor_val_two]
    show q.val * 1 + 0 = 0 * 8192 + q.val
    omega)).trans ?_
  refine (broadcastInDim_apply _ bcast_S8192_S8192x1_0 _ (ix2 q (0 : Fin 1)) (ix1 q) (fun a => match a with
    | ⟨0, _⟩ => by show q.val = if (8192 : Nat) = 1 then 0 else q.val; rw [if_neg (by decide)])).trans ?_
  exact sum_sq_w (W m c) q

end Cert.KernelIdeal.Entry

end
-- ==== Proof.Blocks.lean ====
/-
  From the grid points' blocks to the whole result array.

  The grid has 2 × 16 points. Point `(a, b)` holds rows `2048·a … 2048·a + 2047` of `x` and of the column of
  squared lengths, rows `512·b … 512·b + 511` of `w` and the matching stretch of the row of squared lengths, and
  writes back the block of the result at block index `(a, b)`: rows `2048·a + p`, columns `512·b + q`. Reading every
  operand of the body where the block's rectangle says, the stored entry `(p, q)` is the clamped Gaussian entry of row
  `2048·a + p` of `x` and row `512·b + q` of `w`. The 32 blocks tile the `[4096, 8192]` result (the block that
  holds `(i, j)` is `(i / 2048, j / 512)`), so after the run the result array is `gaussClamped x w` everywhere.
-/
import proofs.«114324_j61229053771823_2_alg».proof.Proof.Gen.KernelIdeal.Value
import proofs.«114324_j61229053771823_2_alg».proof.Proof.BlockValue
import proofs.«114324_j61229053771823_2_alg».proof.Proof.EntryArrays

set_option maxRecDepth 16384

noncomputable section

namespace Cert.KernelIdeal.Blocks

open Cert.KernelIdeal Cert.KernelIdeal.Gen Cert.KernelIdeal.Value Cert.KernelIdeal.Entry Cert.KernelIdeal.BlockValue
open Idealize.ShloMosaic Idealize.ShloMosaic.TcCoe Idealize.SL.Sem Idealize.ShloMosaic.ValueIdx Cert.Rbf
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The printed index maps, decided over the 32 points: the blocks of `x` and of the column move with the output's row
    block, the blocks of `w` and of the row with its column block, and the output's block indices stay in `2 × 16`. -/
theorem idx_facts : ∀ t : Fin cfg0.N,
    win0_0.index t (0 : Fin 2) = win0_4.index t (0 : Fin 2) ∧ win0_0.index t (1 : Fin 2) = 0
    ∧ win0_1.index t (0 : Fin 2) = win0_4.index t (1 : Fin 2) ∧ win0_1.index t (1 : Fin 2) = 0
    ∧ win0_2.index t (0 : Fin 2) = win0_4.index t (0 : Fin 2) ∧ win0_2.index t (1 : Fin 2) = 0
    ∧ win0_3.index t (0 : Fin 2) = 0 ∧ win0_3.index t (1 : Fin 2) = win0_4.index t (1 : Fin 2)
    ∧ win0_4.index t (0 : Fin 2) ≤ 1 ∧ win0_4.index t (1 : Fin 2) ≤ 15 :=
  (by decide +kernel : ∀ t : Fin grid0.N, _)

/-- Every block index of the `2 × 16` box is some point's. -/
theorem idx_onto : ∀ (q0 : Fin 2) (q1 : Fin 16), ∃ t : Fin cfg0.N, win0_4.index t = ![q0.val, q1.val] :=
  (by decide +kernel : ∀ (q0 : Fin 2) (q1 : Fin 16), ∃ t : Fin grid0.N, win0_4.index t = ![q0.val, q1.val])

/-! ## The input blocks, read where the output's rectangle says -/

/-- Entry `(p, k)` of the block of `x` at point `t` is `x` at row `r = 2048·a + p`. -/
theorem xblk_apply (c : Dev nD) (t : Fin cfg0.N) (p : Fin 2048) (k : Fin 512) (r : Fin 4096)
    (hr : r.val = win0_4.index t (0 : Fin 2) * 2048 + p.val) :
    (iblk m c 0 t : S2048x512.Idx → EReal) (ix2 p k) = X m c (ix2 r k) := by
  obtain ⟨e0, e1, -⟩ := idx_facts t
  unfold iblk
  rw [View.read_apply]
  show (V m c main_v7 : S4096x512.Idx → EReal) (((cfg0.win 0).blk t).view.emb (ix2 p k)) = _
  rw [xb_apply]
  refine congrArg (X m c) (funext fun a => Fin.ext ?_)
  match a with
  | ⟨0, _⟩ => show win0_0.index t (0 : Fin 2) * 2048 + 1 * p.val = r.val; omega
  | ⟨1, _⟩ => show win0_0.index t (1 : Fin 2) * 512 + 1 * k.val = k.val; omega

/-- Entry `(q, k)` of the block of `w` at point `t` is `w` at row `s = 512·b + q`. -/
theorem wblk_apply (c : Dev nD) (t : Fin cfg0.N) (q : Fin 512) (k : Fin 512) (s : Fin 8192)
    (hs : s.val = win0_4.index t (1 : Fin 2) * 512 + q.val) :
    (iblk m c 1 t : S512x512.Idx → EReal) (ix2 q k) = W m c (ix2 s k) := by
  obtain ⟨-, -, e2, e3, -⟩ := idx_facts t
  unfold iblk
  rw [View.read_apply]
  show (V m c main_v8 : S8192x512.Idx → EReal) (((cfg0.win 1).blk t).view.emb (ix2 q k)) = _
  rw [wb_apply]
  refine congrArg (W m c) (funext fun a => Fin.ext ?_)
  match a with
  | ⟨0, _⟩ => show win0_1.index t (0 : Fin 2) * 512 + 1 * q.val = s.val; omega
  | ⟨1, _⟩ => show win0_1.index t (1 : Fin 2) * 512 + 1 * k.val = k.val; omega

/-- Entry `(p, 0)` of the block of the column at point `t` is the squared length of row `r = 2048·a + p` of `x`. -/
theorem sxblk_apply (c : Dev nD) (t : Fin cfg0.N) (p : Fin 2048) (r : Fin 4096)
    (hr : r.val = win0_4.index t (0 : Fin 2) * 2048 + p.val) :
    (iblk m c 2 t : S2048x1.Idx → EReal) (ix2 p (0 : Fin 1)) = rowSq (X m c) r := by
  obtain ⟨-, -, -, -, e4, e5, -⟩ := idx_facts t
  unfold iblk
  rw [View.read_apply]
  show (V m c main_v2 : S4096x1.Idx → EReal) (((cfg0.win 2).blk t).view.emb (ix2 p (0 : Fin 1))) = _
  refine Eq.trans (congrArg (V m c main_v2 : S4096x1.Idx → EReal) (funext fun a => Fin.ext ?_)) (sx_apply m c r)
  match a with
  | ⟨0, _⟩ => show win0_2.index t (0 : Fin 2) * 2048 + 1 * p.val = r.val; omega
  | ⟨1, _⟩ => show win0_2.index t (1 : Fin 2) * 1 + 1 * 0 = 0; omega

/-- Entry `(0, q)` of the block of the row at point `t` is the squared length of row `s = 512·b + q` of `w`. -/
theorem swblk_apply (c : Dev nD) (t : Fin cfg0.N) (q : Fin 512) (s : Fin 8192)
    (hs : s.val = win0_4.index t (1 : Fin 2) * 512 + q.val) :
    (iblk m c 3 t : S1x512.Idx → EReal) (ix2 (0 : Fin 1) q) = rowSq (W m c) s := by
  obtain ⟨-, -, -, -, -, -, e6, e7, -⟩ := idx_facts t
  unfold iblk
  rw [View.read_apply]
  show (V m c main_v6 : S1x8192.Idx → EReal) (((cfg0.win 3).blk t).view.emb (ix2 (0 : Fin 1) q)) = _
  refine Eq.trans (congrArg (V m c main_v6 : S1x8192.Idx → EReal) (funext fun a => Fin.ext ?_)) (sw_apply m c s)
  match a with
  | ⟨0, _⟩ => show win0_3.index t (0 : Fin 2) * 1 + 1 * 0 = 0; omega
  | ⟨1, _⟩ => show win0_3.index t (1 : Fin 2) * 512 + 1 * q.val = s.val; omega

/-! ## What a point stores, entry by entry -/

/-- The body's stored entry `(p, q)` at point `t` is the clamped Gaussian entry of rows `r` of `x` and `s` of `w`. -/
theorem point_apply (c : Dev nD) (t : Fin cfg0.N) (p : Fin 2048) (q : Fin 512) (r : Fin 4096) (s : Fin 8192)
    (hr : r.val = win0_4.index t (0 : Fin 2) * 2048 + p.val) (hs : s.val = win0_4.index t (1 : Fin 2) * 512 + q.val) :
    k0_pay1 (F := Ideal) (iblk m c 0 t) (iblk m c 1 t) (iblk m c 2 t) (iblk m c 3 t) (ix2 p q) = gaussClampedAt (X m c) (W m c) r s := by
  refine (pay_apply (iblk m c 0 t) (iblk m c 1 t) (iblk m c 2 t) (iblk m c 3 t) p q).trans ?_
  simp only [fun k => xblk_apply m c t p k r hr, fun k => wblk_apply m c t q k s hs, sxblk_apply m c t p r hr,
    swblk_apply m c t q s hs]
  rfl

/-- WHAT POINT `t` WRITES BACK is its block of the clamped Gaussian matrix of the two arguments. -/
theorem flushed_eq (c : Dev nD) (t : Fin cfg0.N) :
    (dats m 0 c).flushed 4 t = ((cfg0.win 4).blk t).view.read (Elt Ideal) (gaussClamped (X m c) (W m c)) := by
  rw [flushed4]
  unfold out0_4
  rw [View.canon_unit_zero hz]
  simp only [View.ld_unit_zero (S := S2048x512) hz, View.ld_unit_zero (S := S512x512) hz, View.ld_unit_zero (S := S2048x1) hz,
    View.ld_unit_zero (S := S1x512) hz]
  funext j
  obtain ⟨p, q, rfl⟩ : ∃ (p : Fin 2048) (q : Fin 512), j = ix2 p q := ⟨j 0, j 1, eq_ix2 (n0 := 2048) (n1 := 512) j⟩
  show k0_pay1 (F := Ideal) (iblk m c 0 t) (iblk m c 1 t) (iblk m c 2 t) (iblk m c 3 t) (ix2 p q)
    = gaussClampedAt (X m c) (W m c) ((((cfg0.win 4).blk t).view.emb (ix2 p q)) 0) ((((cfg0.win 4).blk t).view.emb (ix2 p q)) 1)
  refine point_apply m c t p q _ _ ?_ ?_
  · show win0_4.index t (0 : Fin 2) * 2048 + 1 * p.val = win0_4.index t (0 : Fin 2) * 2048 + p.val; omega
  · show win0_4.index t (1 : Fin 2) * 512 + 1 * q.val = win0_4.index t (1 : Fin 2) * 512 + q.val; omega

/-! ## The blocks tile the result -/

/-- An index of the result is in point `t`'s block iff each coordinate is in the block's range on its axis. -/
theorem mem_blk (t : Fin cfg0.N) (i : S4096x8192.Idx) :
    i ∈ ((cfg0.win 4).blk t).view.set ↔ ∀ a : Fin 2, win0_4.index t a * S2048x512.size a ≤ (i a).val ∧ (i a).val < win0_4.index t a * S2048x512.size a + S2048x512.size a := by
  show i ∈ ((View.whole main_v9).slice (win0_4.rect t)).set ↔ _
  rw [View.set_slice_whole, Rect.mem_set_unit]
  exact Iff.rfl

/-- Every index of the result is in some point's block: the one at block index `(i / 2048, j / 512)`. -/
theorem cover (i : S4096x8192.Idx) : ∃ t : Fin cfg0.N, (cfg0.win 4).flush t = true ∧ i ∈ ((cfg0.win 4).blk t).view.set := by
  have hi0 : (i 0).val < 4096 := (i 0).isLt
  have hi1 : (i 1).val < 8192 := (i 1).isLt
  obtain ⟨t, ht⟩ := idx_onto ⟨(i 0).val / 2048, by omega⟩ ⟨(i 1).val / 512, by omega⟩
  have q0 : win0_4.index t (0 : Fin 2) = (i 0).val / 2048 := congrFun ht 0
  have q1 : win0_4.index t (1 : Fin 2) = (i 1).val / 512 := congrFun ht 1
  refine ⟨t, flush0_4 t, ?_⟩
  rw [mem_blk]
  intro a
  match a with
  | ⟨0, _⟩ => show win0_4.index t (0 : Fin 2) * 2048 ≤ (i 0).val ∧ (i 0).val < win0_4.index t (0 : Fin 2) * 2048 + 2048; omega
  | ⟨1, _⟩ => show win0_4.index t (1 : Fin 2) * 512 ≤ (i 1).val ∧ (i 1).val < win0_4.index t (1 : Fin 2) * 512 + 512; omega

/-- THE RESULT ARRAY after the run is the clamped Gaussian matrix of the two arguments. -/
theorem final (c : Dev nD) : (dats m 0 c).arrAt 4 cfg0.N = gaussClamped (X m c) (W m c) :=
  (dats m 0 c).arrAt_eq_of_cover 4 (gaussClamped (X m c) (W m c)) (fun t _ => flushed_eq m c t) cover

/-- The run, read: the result array at the clamped Gaussian matrix, the arguments unchanged. -/
theorem run : θ_run defs (onTc (τ := τ) (main (F := Ideal))) ⟨m, fun _ => 0, ρ⟩ fun r => ∀ c : Dev nD,
      r.2.mem ((c : Thread nD τ).loc main_v9) = gaussClamped (X m c) (W m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.Blocks

end
-- ==== Proof.FiniteInputs.lean ====
/-
  The precondition, read back: every entry of both arguments is a real number.

  The precondition is `all (|x| < +∞) ∧ all (|w| < +∞)`, each `all` a reduction by `and` of the entrywise comparisons
  into one bit. If the conjunction is 1 both reductions are 1, so every comparison is 1; and an extended real whose
  absolute value `max a (−a)` is below `⊤` is neither `⊤` nor `⊥`: it is a real.
-/
import proofs.«114324_j61229053771823_2_alg».proof.Pre_finite_inputs
import proofs.«114324_j61229053771823_2_alg».proof.Proof.Gen.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.Pre_finite_inputs.Finite

open Cert.Pre_finite_inputs Idealize.ShloMosaic Idealize.ShloMosaic.ValueIdx

/-- The scalar shape has one index. -/
instance : Subsingleton S_.Idx := ⟨fun a b => funext fun d => d.elim0⟩

/-- The pattern the comparison is against denotes `+∞`. -/
theorem inf_pattern : Ideal.ofBits .f32 0x7F800000#32 = ⊤ := by simp [Ideal.ofBits, Ideal.ieee]

/-- An extended real whose absolute value is below `+∞` is a real. -/
theorem real_of_abs_lt_inf (a : EReal) (h : Ideal.cmp .olt (max a (-a)) (Ideal.ofBits .f32 0x7F800000#32) = 1#1) :
    ∃ r : ℝ, a = (r : EReal) := by
  rw [inf_pattern] at h
  induction a using EReal.rec with
  | bot => simp [Ideal.cmp] at h
  | top => simp [Ideal.cmp] at h
  | coe r => exact ⟨r, rfl⟩

/-- If the printed precondition holds of `x` and `w`, every entry of each is a real. -/
theorem real_of_pre (x : FVec Ideal S4096x512 .f32) (w : FVec Ideal S8192x512 .f32)
    (h : fn (F := Ideal) x w = fun _ => 1#1) :
    (∀ i, ∃ r : ℝ, x i = (r : EReal)) ∧ (∀ i, ∃ r : ℝ, w i = (r : EReal)) := by
  have h0 := congrFun h ix0
  dsimp only [fn] at h0
  obtain ⟨hx, hw⟩ := IntOp.andi_eq_one.1 h0
  refine ⟨fun i => ?_, fun i => ?_⟩
  · exact real_of_abs_lt_inf (x i) (Host.reduce_andi_all _ _ _ _ _ hx i)
  · exact real_of_abs_lt_inf (w i) (Host.reduce_andi_all _ _ _ _ _ hw i)

end Cert.Pre_finite_inputs.Finite

end
-- ==== Proof.lean ====
/-
  A Gaussian (radial basis function) kernel matrix, tiled over a 2 × 16 grid, against its plain formula.

  Both programs compute, for `x : [4096, 512]` and `w : [8192, 512]`, the matrix with entry
  `exp (-(1/2) · d²(r, q))` at `(r, q)`, the squared distance of row `r` of `x` from row `q` of `w` expanded as
  `(|x_r|² + |w_q|²) − 2 · ⟨x_r, w_q⟩`. The tiled program forms the squared lengths on the host, the inner products
  block by block on the grid (a change of float format on the way in, which is the identity on the extended reals),
  and clamps the expanded distance below by zero before the exponential; the plain one does not clamp.

  * the reference's result is `gauss x w` (Proof/RefIsGauss.lean, over the generated read-at-an-index lemmas);
  * each grid point stores its block of `gaussClamped x w`, and the 32 blocks tile the result
    (Proof/BlockValue.lean, Proof/EntryArrays.lean, Proof/Blocks.lean, over the generated frame run);
  * on finite arguments — the precondition, read back in Proof/FiniteInputs.lean — the expansion is
    `Σₖ (x_rk − w_qk)² ≥ 0`, so the clamp is the identity and the two matrices are one (Proof/RbfSpec.lean).

  The three frames are the generated frame runs; nothing of the tiled program was rewritten for the ideal reading, so
  there is nothing to preserve.
-/
import proofs.«114324_j61229053771823_2_alg».proof.Defs
import proofs.«114324_j61229053771823_2_alg».proof.Proof.Gen.Kernel
import proofs.«114324_j61229053771823_2_alg».proof.Proof.Gen.Kernel.Skeleton
import proofs.«114324_j61229053771823_2_alg».proof.Proof.Gen.Kernel.Launch
import proofs.«114324_j61229053771823_2_alg».proof.Proof.Gen.Kernel.Points
import proofs.«114324_j61229053771823_2_alg».proof.Proof.Gen.Kernel.Frame
import proofs.«114324_j61229053771823_2_alg».proof.Proof.Gen.KernelIdeal
import proofs.«114324_j61229053771823_2_alg».proof.Proof.Gen.KernelIdeal.Skeleton
import proofs.«114324_j61229053771823_2_alg».proof.Proof.Gen.KernelIdeal.Launch
import proofs.«114324_j61229053771823_2_alg».proof.Proof.Gen.KernelIdeal.Points
import proofs.«114324_j61229053771823_2_alg».proof.Proof.Gen.KernelIdeal.Frame
import proofs.«114324_j61229053771823_2_alg».proof.Proof.Gen.ReferenceIdeal
import proofs.«114324_j61229053771823_2_alg».proof.Proof.Gen.Pre_finite_inputs
import proofs.«114324_j61229053771823_2_alg».proof.Proof.Gen.KernelIdeal.Value
import proofs.«114324_j61229053771823_2_alg».proof.Proof.Gen.ReferenceIdeal.Run
import proofs.«114324_j61229053771823_2_alg».proof.Proof.Gen.ReferenceIdeal.Read
import proofs.«114324_j61229053771823_2_alg».proof.Proof.RbfSpec
import proofs.«114324_j61229053771823_2_alg».proof.Proof.RefIsGauss
import proofs.«114324_j61229053771823_2_alg».proof.Proof.Blocks
import proofs.«114324_j61229053771823_2_alg».proof.Proof.FiniteInputs
import Idealize.ShloMosaic.Adequacy
import Idealize.ShloMosaic.Init

noncomputable section

namespace Cert.Proof

open Idealize.ShloMosaic Idealize.ShloMosaic.TcCoe Idealize.SL.Sem

/-- The tiled program runs and leaves its arguments as they were, at the word level … -/
theorem frame_kernel : Cert.frame_Kernel := fun m ρ _ => Cert.Kernel.Gen.frame m ρ

/-- … and read over the extended reals. -/
theorem frame_kernelIdeal : Cert.frame_KernelIdeal := fun m ρ _ => Cert.KernelIdeal.Gen.frame m ρ

/-- The plain program runs and leaves its arguments as they were: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on finite arguments both programs end with the Gaussian matrix `gauss x w`: the tiled one
    with the clamped matrix, which on finite rows is the same; the plain one with `gauss` itself. -/
theorem algebraic : Cert.algebraic_KernelIdeal_ReferenceIdeal := by
  intro m ρ m' ρ' hpre hagree
  refine ⟨fun c => Cert.Rbf.gauss (Cert.KernelIdeal.Entry.X m c) (Cert.KernelIdeal.Entry.W m c), ?_, ?_⟩
  · refine (θ_run Cert.KernelIdeal.defs _ _).mono (fun r h c => ⟨(h c).1.trans ?_, (h c).2⟩) (Cert.KernelIdeal.Blocks.run m ρ)
    obtain ⟨hx, hw⟩ := Cert.Pre_finite_inputs.Finite.real_of_pre _ _ (hpre c)
    exact Cert.Rbf.gaussClamped_eq_gauss _ _ hx hw
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v15_eq, Cert.ReferenceIdeal.RefValue.ref_is_gauss, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
